-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S1x128 : Shape := ⟨2, ![1, 128]⟩
abbrev S100000x1 : Shape := ⟨2, ![100000, 1]⟩
abbrev S4000x128 : Shape := ⟨2, ![4000, 128]⟩
abbrev S4000x1 : Shape := ⟨2, ![4000, 1]⟩

abbrev nBuf : Space → Nat
  | .hbm => 68
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S_, .f32⟩
  | .hbm, ⟨31, _⟩ => ⟨S100000x128, .f32⟩
  | .hbm, ⟨32, _⟩ => ⟨S640000x1, .i32⟩
  | .hbm, ⟨33, _⟩ => ⟨S100000x128, .f32⟩
  | .hbm, ⟨34, _⟩ => ⟨S_, .f32⟩
  | .hbm, ⟨35, _⟩ => ⟨S640000, .f32⟩
  | .hbm, ⟨36, _⟩ => ⟨S_, .f32⟩
  | .hbm, ⟨37, _⟩ => ⟨S100000, .f32⟩
  | .hbm, ⟨38, _⟩ => ⟨S640000x1, .i32⟩
  | .hbm, ⟨39, _⟩ => ⟨S100000, .f32⟩
  | .hbm, ⟨40, _⟩ => ⟨S_, .f32⟩
  | .hbm, ⟨41, _⟩ => ⟨S100000x128, .f32⟩
  | .hbm, ⟨42, _⟩ => ⟨S640000x1, .i32⟩
  | .hbm, ⟨43, _⟩ => ⟨S100000x128, .f32⟩
  | .hbm, ⟨44, _⟩ => ⟨S_, .f32⟩
  | .hbm, ⟨45, _⟩ => ⟨S640000, .f32⟩
  | .hbm, ⟨46, _⟩ => ⟨S_, .f32⟩
  | .hbm, ⟨47, _⟩ => ⟨S100000, .f32⟩
  | .hbm, ⟨48, _⟩ => ⟨S640000x1, .i32⟩
  | .hbm, ⟨49, _⟩ => ⟨S100000, .f32⟩
  | .hbm, ⟨50, _⟩ => ⟨S_, .f32⟩
  | .hbm, ⟨51, _⟩ => ⟨S128x128, .f32⟩
  | .hbm, ⟨52, _⟩ => ⟨S128x128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S100000x1, .f32⟩
  | .hbm, ⟨66, _⟩ => ⟨S100000x1, .f32⟩
  | .hbm, ⟨67, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x1, .f32⟩
  | .local _ .vmem, ⟨7, _⟩ => ⟨S4000x1, .f32⟩
  | .local _ .vmem, ⟨8, _⟩ => ⟨S4000x1, .f32⟩
  | .local _ .vmem, ⟨9, _⟩ => ⟨S4000x1, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S_S128x128 : S_.BroadcastsInDim S128x128 (![] : Fin 0 → Fin S128x128.rank)
  bcast_S_S128 : S_.BroadcastsInDim S128 (![] : Fin 0 → Fin S128.rank)
  shapeCasts_S128_S1x128 : S128.ShapeCasts S1x128
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S100000x1.size a
  hwx0_4 : ∀ i : grid0.Coords, EltTy.bits .f32 = 32 ∨ (Rect.block (s := S100000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v44) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S_, .f32⟩
  | .hbm, ⟨51, _⟩ => ⟨S100000x128, .f32⟩
  | .hbm, ⟨52, _⟩ => ⟨S640000x1, .i32⟩
  | .hbm, ⟨53, _⟩ => ⟨S100000x128, .f32⟩
  | .hbm, ⟨54, _⟩ => ⟨S_, .f32⟩
  | .hbm, ⟨55, _⟩ => ⟨S640000, .f32⟩
  | .hbm, ⟨56, _⟩ => ⟨S_, .f32⟩
  | .hbm, ⟨57, _⟩ => ⟨S100000, .f32⟩
  | .hbm, ⟨58, _⟩ => ⟨S640000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Scale.lean ====
/-
  Scaling by one half on the extended reals.

  The kernel folds the factor 1/2 of each aggregated direction into that direction's weight matrix and bias
  before the matrix products; the reference multiplies each direction's finished output (product plus bias)
  by 1/2.  On the extended reals multiplication by a finite nonnegative number distributes over every sum
  (infinite summands included), and multiplication is commutative and associative, so the two arrangements
  are one number: no summand has to be finite.
-/
import Mathlib.Data.EReal.Operations
import Idealize.ShloMosaic.PureOps.Ideal

noncomputable section

namespace Cert.DirSage

open Idealize.ShloMosaic

/-- The float pattern of one half denotes the real number 1/2. -/
theorem half_eq : Ideal.ofBits .f32 0x3F000000#32 = ((1 / 2 : ℝ) : EReal) := by
  simp [Ideal.ofBits, Ideal.ieee, -EReal.coe_mul]; norm_num

theorem half_nonneg : (0 : EReal) ≤ Ideal.ofBits .f32 0x3F000000#32 := by
  rw [half_eq]; exact EReal.coe_nonneg.mpr (by norm_num)

theorem half_ne_top : Ideal.ofBits .f32 0x3F000000#32 ≠ (⊤ : EReal) := by
  rw [half_eq]; exact EReal.coe_ne_top _

/-- A finite nonnegative factor goes inside a finite sum of extended reals. -/
theorem mul_sum {ι : Type} (s : Finset ι) (h : EReal) (h0 : 0 ≤ h) (ht : h ≠ ⊤) (f : ι → EReal) :
    h * ∑ k ∈ s, f k = ∑ k ∈ s, h * f k := by
  classical
  induction s using Finset.induction_on with
  | empty => simp
  | insert a s ha ih =>
    rw [Finset.sum_insert ha, Finset.sum_insert ha, EReal.left_distrib_of_nonneg_of_ne_top h0 ht, ih]

/-- The factor folded into the weights is the factor applied to the product. -/
theorem sum_scaled_weights {ι : Type} [Fintype ι] (h : EReal) (h0 : 0 ≤ h) (ht : h ≠ ⊤) (p w : ι → EReal) :
    ∑ k, p k * (w k * h) = h * ∑ k, p k * w k := by
  rw [mul_sum _ h h0 ht]
  refine Finset.sum_congr rfl fun k _ => ?_
  rw [mul_comm (w k) h, mul_left_comm]

/-- Root term, two aggregated directions with the factor folded into weights and biases, and the combined
    bias — against each direction's output scaled after its bias is added. -/
theorem fold_half {ι : Type} [Fintype ι] (h : EReal) (h0 : 0 ≤ h) (ht : h ≠ ⊤)
    (a wl p ws q wt : ι → EReal) (bl bs bt : EReal) :
    ((∑ k, a k * wl k + ∑ k, p k * (ws k * h)) + ∑ k, q k * (wt k * h)) + ((bl + bs * h) + bt * h)
      = ((∑ k, a k * wl k + bl) + h * (∑ k, p k * ws k + bs)) + h * (∑ k, q k * wt k + bt) := by
  rw [sum_scaled_weights h h0 ht, sum_scaled_weights h h0 ht,
    EReal.left_distrib_of_nonneg_of_ne_top h0 ht, EReal.left_distrib_of_nonneg_of_ne_top h0 ht,
    mul_comm bs h, mul_comm bt h]
  abel

end Cert.DirSage

end
-- ==== Proof.Spec.lean ====
/-
  The layer as one function of its arrays, index by index.

  For node `r` and output feature `j`, with `X` the node features, `S₁`, `S₂` the two directions' neighbour sums and
  `C₁`, `C₂` their neighbour counts:

      out r j = (Σₖ X r k · Wl k j + bl j)
                + ½ · (Σₖ (S₁ r k / max (C₁ r) 1) · Ws k j + bs j)
                + ½ · (Σₖ (S₂ r k / max (C₂ r) 1) · Wt k j + bt j)          (`layerAt`)

  The kernel computes the same number from arrays prepared beforehand: the counts as a column, the two direction
  weights already multiplied by ½, and one combined bias row `bl + bs·½ + bt·½` (`foldedAt`).  `foldedAt_prepared`
  says the two agree; the only law used is that ½ distributes over sums of extended reals.
-/
import proofs.«101336_j25829933318545_2_alg».proof.Proof.Scale
import Idealize.ShloMosaic.Lib.ValueIdx

noncomputable section

namespace Cert.DirSage

open Idealize.ShloMosaic Idealize.ShloMosaic.ValueIdx

/-- node features, neighbour sums, the result: 100000 nodes by 128 features -/
abbrev SNode : Shape := ⟨2, ![100000, 128]⟩
/-- a weight matrix -/
abbrev SWeight : Shape := ⟨2, ![128, 128]⟩
/-- a bias vector -/
abbrev SBias : Shape := ⟨1, ![128]⟩
/-- neighbour counts, one per node -/
abbrev SCount : Shape := ⟨1, ![100000]⟩
/-- neighbour counts as a column -/
abbrev SCountCol : Shape := ⟨2, ![100000, 1]⟩
/-- the combined bias as a row -/
abbrev SBiasRow : Shape := ⟨2, ![1, 128]⟩

/-- the float pattern of 1.0, the clamp of an empty neighbourhood's count -/
abbrev one : EReal := Ideal.ofBits .f32 0x3F800000#32
/-- the float pattern of 0.5, the weight of each direction -/
abbrev half : EReal := Ideal.ofBits .f32 0x3F000000#32

/-- The mean over a neighbourhood: the neighbour sum over the count clamped below at one. -/
def mean (S : SNode.Idx → EReal) (C : SCount.Idx → EReal) (r : Fin 100000) (k : Fin 128) : EReal :=
  Ideal.div (S (ix2 r k)) (max (C (ix1 r)) one)

/-- The layer's output at node `r`, feature `j`: root term plus half of each direction's output. -/
def layerAt (X S₁ S₂ : SNode.Idx → EReal) (C₁ C₂ : SCount.Idx → EReal) (Wl Ws Wt : SWeight.Idx → EReal)
    (bl bs bt : SBias.Idx → EReal) (r : Fin 100000) (j : Fin 128) : EReal :=
  ((∑ k : Fin 128, X (ix2 r k) * Wl (ix2 k j) + bl (ix1 j))
    + half * (∑ k : Fin 128, mean S₁ C₁ r k * Ws (ix2 k j) + bs (ix1 j)))
    + half * (∑ k : Fin 128, mean S₂ C₂ r k * Wt (ix2 k j) + bt (ix1 j))

/-- The same output from prepared arrays: counts as a column `K₁`, `K₂`, direction weights `Ws'`, `Wt'` already
    scaled, one bias row `B`. -/
def foldedAt (X S₁ S₂ : SNode.Idx → EReal) (K₁ K₂ : SCountCol.Idx → EReal) (Wl Ws' Wt' : SWeight.Idx → EReal)
    (B : SBiasRow.Idx → EReal) (r : Fin 100000) (j : Fin 128) : EReal :=
  ((∑ k : Fin 128, X (ix2 r k) * Wl (ix2 k j)
      + ∑ k : Fin 128, Ideal.div (S₁ (ix2 r k)) (max (K₁ (ix2 r (0 : Fin 1))) one) * Ws' (ix2 k j))
    + ∑ k : Fin 128, Ideal.div (S₂ (ix2 r k)) (max (K₂ (ix2 r (0 : Fin 1))) one) * Wt' (ix2 k j))
  + B (ix2 (0 : Fin 1) j)

/-- With the arrays prepared as the kernel's host code prepares them, the folded form is the layer. -/
theorem foldedAt_prepared (X S₁ S₂ : SNode.Idx → EReal) (C₁ C₂ : SCount.Idx → EReal) (Wl Ws Wt : SWeight.Idx → EReal)
    (bl bs bt : SBias.Idx → EReal) (r : Fin 100000) (j : Fin 128) :
    foldedAt X S₁ S₂ (fun y => C₁ (ix1 (y 0))) (fun y => C₂ (ix1 (y 0))) Wl (fun y => Ws y * half) (fun y => Wt y * half)
        (fun y => (bl (ix1 (y 1)) + bs (ix1 (y 1)) * half) + bt (ix1 (y 1)) * half) r j
      = layerAt X S₁ S₂ C₁ C₂ Wl Ws Wt bl bs bt r j := by
  unfold foldedAt layerAt mean
  exact fold_half half half_nonneg half_ne_top
    (fun k => X (ix2 r k)) (fun k => Wl (ix2 k j))
    (fun k => Ideal.div (S₁ (ix2 r k)) (max (C₁ (ix1 r)) one)) (fun k => Ws (ix2 k j))
    (fun k => Ideal.div (S₂ (ix2 r k)) (max (C₂ (ix1 r)) one)) (fun k => Wt (ix2 k j))
    (bl (ix1 j)) (bs (ix1 j)) (bt (ix1 j))

end Cert.DirSage

end
-- ==== Proof.Payload.lean ====
/-
  What the kernel body leaves in one output block, entry by entry.

  The body reads a block of 4000 node rows: the nodes' features `X`, the two directions' neighbour sums `S₁`, `S₂` and
  counts `K₁`, `K₂` (columns), and whole the root weights `Wl`, the two scaled direction weights `Ws'`, `Wt'` and the
  bias row `B`.  Each of its three matrix products starts from a zero accumulator, so at row `a`, column `b` it is
  the plain sum over the contracted feature; the roundings to a narrower float format on the way into the products are
  the identity on extended reals; the clamped count column is broadcast along the features.  So the block holds

      (Σₖ X a k · Wl k b + Σₖ (S₁ a k / max (K₁ a) 1) · Ws' k b + Σₖ (S₂ a k / max (K₂ a) 1) · Wt' k b) + B b.
-/
import proofs.«101336_j25829933318545_2_alg».proof.Proof.Gen.KernelIdeal.Value
import proofs.«101336_j25829933318545_2_alg».proof.Proof.Spec
import Idealize.ShloMosaic.PureOps.Ideal.Laws
import Idealize.ShloMosaic.Lib.ValueIdx
import Idealize.ShloMosaic.Lib.Pipeline.Value

noncomputable section

namespace Cert.DirSage.Body

open Cert.KernelIdeal Cert.KernelIdeal.Gen Cert.KernelIdeal.Value Idealize.ShloMosaic Idealize.ShloMosaic.ValueIdx Cert.DirSage

/-! ### A matrix product of a block of rows with a weight matrix, from zero -/

theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem lhs_contr (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_contr (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- Into a zero accumulator the product at row `a`, column `b` is the sum over the contracted feature. -/
theorem product_at {φ₁ φ₂ : FTy} (l : FVec Ideal S4000x128 φ₁) (w : FVec Ideal S128x128 φ₂) (a : Fin 4000) (b : Fin 128) :
    matmul dot_S4000x128_S128x128_S4000x128_1_0_0_1_n_n none l w (constant (F := Ideal) S4000x128 .f32 0x00000000#32) (ix2 a b)
      = ∑ k : Fin 128, l (ix2 a k) * w (ix2 k b) := by
  show FloatOps.matmul dot_S4000x128_S128x128_S4000x128_1_0_0_1_n_n none l w (constant (F := Ideal) S4000x128 .f32 0x00000000#32) (ix2 a b) = _
  rw [Ideal.matmul_constant_zero_apply,
    ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 a b)
      ((ValueIdx.contrEquiv1 dot_S4000x128_S128x128_S4000x128_1_0_0_1_n_n 128 rfl rfl).symm k) = ix2 a k :=
    funext fun d => Fin.ext (by
      match d with
      | ⟨0, _⟩ => exact lhs_row _ _
      | ⟨1, _⟩ => exact (lhs_contr _ _).trans hk)
  have er : dot_S4000x128_S128x128_S4000x128_1_0_0_1_n_n.rhsIdx (ix2 a b)
      ((ValueIdx.contrEquiv1 dot_S4000x128_S128x128_S4000x128_1_0_0_1_n_n 128 rfl rfl).symm k) = ix2 k b :=
    funext fun d => Fin.ext (by
      match d with
      | ⟨0, _⟩ => exact (rhs_contr _ _).trans hk
      | ⟨1, _⟩ => exact rhs_col _ _)
  rw [el, er]

/-! ### The clamped count column, broadcast along the features -/

/-- The count column clamped below at one and broadcast to the block, read at row `a` (any column). -/
theorem clamped_count_at (K : Vec Ideal S4000x1 .f32) (a : Fin 4000) (k : Fin 128) :
    broadcastTo S4000x128 (maximumf K (broadcast S4000x1 (Scalar.ofBits (F := Ideal) .f32 0x3F800000#32)))
        broadcasts_S4000x1_S4000x128 (ix2 a k)
      = max (K (ix2 a (0 : Fin 1))) one := by
  refine (broadcastTo_apply _ broadcasts_S4000x1_S4000x128 (ix2 a k) (ix2 a (0 : Fin 1)) (fun d => ?_)).trans ?_
  · match d with
    | ⟨0, _⟩ => show a.val = if (4000 : Nat) = 1 then 0 else a.val; rw [if_neg (by decide)]
    | ⟨1, _⟩ => show (0 : Nat) = if (1 : Nat) = 1 then 0 else k.val; rw [if_pos rfl]
  · rfl

/-! ### The block -/

/-- The three products added, at row `a`, column `b` of the block. -/
theorem products_at (S₁ : Vec Ideal S4000x128 .f32) (K₁ : Vec Ideal S4000x1 .f32) (S₂ : Vec Ideal S4000x128 .f32)
    (K₂ : Vec Ideal S4000x1 .f32) (X : Vec Ideal S4000x128 .f32) (Wl Ws' Wt' : Vec Ideal S128x128 .f32) (a : Fin 4000) (b : Fin 128) :
    k0_pay2 (F := Ideal) S₁ K₁ S₂ K₂ X Wl Ws' Wt' (ix2 a b)
      = (∑ k : Fin 128, X (ix2 a k) * Wl (ix2 k b)
          + ∑ k : Fin 128, Ideal.div (S₁ (ix2 a k)) (max (K₁ (ix2 a (0 : Fin 1))) one) * Ws' (ix2 k b))
        + ∑ k : Fin 128, Ideal.div (S₂ (ix2 a k)) (max (K₂ (ix2 a (0 : Fin 1))) one) * Wt' (ix2 k b) := by
  unfold k0_pay2
  simp only [shapeCast_self]
  refine congrArg₂ (· + ·) (congrArg₂ (· + ·) ?_ ?_) ?_
  · exact product_at _ _ a b
  · refine (product_at _ _ a b).trans (Finset.sum_congr rfl fun k _ => ?_)
    exact congrArg (fun z => Ideal.div (S₁ (ix2 a k)) z * Ws' (ix2 k b)) (clamped_count_at K₁ a k)
  · refine (product_at _ _ a b).trans (Finset.sum_congr rfl fun k _ => ?_)
    exact congrArg (fun z => Ideal.div (S₂ (ix2 a k)) z * Wt' (ix2 k b)) (clamped_count_at K₂ a k)

/-- The whole block: the products plus the bias row, at row `a`, column `b` — the folded form of the layer on
    the block's own rows. -/
theorem block_at (S₁ : Vec Ideal S4000x128 .f32) (K₁ : Vec Ideal S4000x1 .f32) (S₂ : Vec Ideal S4000x128 .f32)
    (K₂ : Vec Ideal S4000x1 .f32) (X : Vec Ideal S4000x128 .f32) (Wl Ws' Wt' : Vec Ideal S128x128 .f32)
    (B : Vec Ideal S1x128 .f32) (a : Fin 4000) (b : Fin 128) :
    E9 (F := Ideal) S₁ K₁ S₂ K₂ X Wl Ws' Wt' B (ix2 a b)
      = ((∑ k : Fin 128, X (ix2 a k) * Wl (ix2 k b)
          + ∑ k : Fin 128, Ideal.div (S₁ (ix2 a k)) (max (K₁ (ix2 a (0 : Fin 1))) one) * Ws' (ix2 k b))
        + ∑ k : Fin 128, Ideal.div (S₂ (ix2 a k)) (max (K₂ (ix2 a (0 : Fin 1))) one) * Wt' (ix2 k b))
        + B (ix2 (0 : Fin 1) b) := by
  show k0_pay2 (F := Ideal) S₁ K₁ S₂ K₂ X Wl Ws' Wt' (ix9_0 (ix2 a b)) + B (ix9_1 (ix2 a b)) = _
  have e0 : ix9_0 (ix2 a b) = ix2 a b := funext fun d => Fin.ext (by match d with | ⟨0, _⟩ => rfl | ⟨1, _⟩ => rfl)
  have e1 : ix9_1 (ix2 a b) = ix2 (0 : Fin 1) b := funext fun d => Fin.ext (by match d with | ⟨0, _⟩ => rfl | ⟨1, _⟩ => rfl)
  rw [e0, e1, products_at]

/-! ### From the input blocks -/

theorem zero_offsets : (![0, 0] : Fin 2 → Nat) = fun _ => 0 := funext fun a => by fin_cases a <;> rfl

/-- The folded form of the layer on one block's own rows: `X`, `S₁`, `S₂`, `K₁`, `K₂` are the block's 4000 rows of
    the features, the neighbour sums and the count columns; the weights and the bias row are whole. -/
def blockAt (X S₁ S₂ : Vec Ideal S4000x128 .f32) (K₁ K₂ : Vec Ideal S4000x1 .f32) (Wl Ws' Wt' : Vec Ideal S128x128 .f32)
    (B : Vec Ideal S1x128 .f32) (a : Fin 4000) (b : Fin 128) : EReal :=
  ((∑ k : Fin 128, X (ix2 a k) * Wl (ix2 k b)
      + ∑ k : Fin 128, Ideal.div (S₁ (ix2 a k)) (max (K₁ (ix2 a (0 : Fin 1))) one) * Ws' (ix2 k b))
    + ∑ k : Fin 128, Ideal.div (S₂ (ix2 a k)) (max (K₂ (ix2 a (0 : Fin 1))) one) * Wt' (ix2 k b))
  + B (ix2 (0 : Fin 1) b)

/-- What the body leaves in the output block, from the nine input blocks in the windows' order (features, the two
    neighbour sums, the two count columns, the three weight matrices, the bias row): every load reads its whole
    block, and the one store writes the whole output block. -/
theorem out_block_at (x0 x1 x2 : Vec Ideal S4000x128 .f32) (x3 x4 : Vec Ideal S4000x1 .f32) (x5 x6 x7 : Vec Ideal S128x128 .f32)
    (x8 : Vec Ideal S1x128 .f32) (a : Fin 4000) (b : Fin 128) :
    out0_9 (F := Ideal) x0 x1 x2 x3 x4 x5 x6 x7 x8 (ix2 a b) = blockAt x0 x1 x2 x3 x4 x5 x6 x7 x8 a b := by
  unfold out0_9 blockAt
  rw [canon9_eq]
  simp only [View.ld_unit_zero (S := S4000x128) zero_offsets, View.ld_unit_zero (S := S4000x1) zero_offsets,
    View.ld_unit_zero (S := S128x128) zero_offsets, View.ld_unit_zero (S := S1x128) zero_offsets]
  exact block_at x1 x3 x2 x4 x0 x5 x6 x7 x8 a b

end Cert.DirSage.Body

end
-- ==== Proof.LibColumnCast.lean ====
/-
  A vector reshaped to a column.
-/
import Idealize.ShloMosaic.Lib.Pipeline.Value
import Idealize.ShloMosaic.Lib.ValueIdx

namespace Cert.Lib

open Idealize.ShloMosaic Idealize.ShloMosaic.ValueIdx

/-- An `[a]` array reshaped to the column `[a, 1]` reads, at `(i, u)`, the operand at `i`, whatever the unit
    coordinate `u`: both positions have the same row-major offset `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.Windows.lean ====
/-
  The arrays the kernel's windows are cut from, as the region finds them.

  Before the kernel is launched the host code computes, from the arguments: the two directions' neighbour sums (a
  gather of feature rows followed by a scatter-add) and neighbour counts (a scatter-add of ones) — by the very
  operations the reference starts with —, reshapes the counts to columns, multiplies the two direction weight
  matrices by one half, and forms the bias row `b_lin + b_st · ½ + b_ts · ½`.
-/
import proofs.«101336_j25829933318545_2_alg».proof.Proof.Gen.KernelIdeal.Frame
import proofs.«101336_j25829933318545_2_alg».proof.Proof.Gen.ReferenceIdeal.Read
import proofs.«101336_j25829933318545_2_alg».proof.Proof.Spec
import proofs.«101336_j25829933318545_2_alg».proof.Proof.LibColumnCast
import Idealize.ShloMosaic.Lib.StableHlo.Run
import Idealize.ShloMosaic.Lib.ValueLayout

noncomputable section

namespace Cert.DirSage.Host

open Cert.KernelIdeal Cert.KernelIdeal.Gen Idealize.ShloMosaic Idealize.ShloMosaic.TcCoe Idealize.SL.Sem
open Idealize.ShloMosaic.StableHlo Idealize.ShloMosaic.ValueIdx Cert.DirSage

variable (m : (ℓ : Loc nD τ sig) → Buf (Elt Ideal) ℓ) (c : Dev nD)

/-! ### Neighbour sums and counts: the reference's own first operations -/

/-- The source-to-target neighbour sums. -/
theorem sums_st : (V m c main_v20 : S100000x128.Idx → EReal)
    = Cert.ReferenceIdeal.Read.val_main_v13 (F := Ideal) (m ((c : Thread nD τ).loc main_arg0)) (m ((c : Thread nD τ).loc main_arg1)) := by
  dsimp only [V, hostOps0]
  after_results_simp
  rfl

/-- The target-to-source neighbour sums. -/
theorem sums_ts : (V m c main_v27 : S100000x128.Idx → EReal)
    = Cert.ReferenceIdeal.Read.val_main_v36 (F := Ideal) (m ((c : Thread nD τ).loc main_arg0)) (m ((c : Thread nD τ).loc main_arg1)) := by
  dsimp only [V, hostOps0]
  after_results_simp
  rfl

/-- The source-to-target neighbour counts, as a column. -/
theorem counts_st_cast : (V m c main_v43 : S100000x1.Idx → EReal)
    = shapeCast S100000x1 (Cert.ReferenceIdeal.Read.val_main_v17 (F := Ideal) (m ((c : Thread nD τ).loc main_arg1))) shapeCasts_S100000_S100000x1 := by
  dsimp only [V, hostOps0]
  after_results_simp
  rfl

/-- The target-to-source neighbour counts, as a column. -/
theorem counts_ts_cast : (V m c main_v44 : S100000x1.Idx → EReal)
    = shapeCast S100000x1 (Cert.ReferenceIdeal.Read.val_main_v40 (F := Ideal) (m ((c : Thread nD τ).loc main_arg1))) shapeCasts_S100000_S100000x1 := by
  dsimp only [V, hostOps0]
  after_results_simp
  rfl

theorem counts_st : (V m c main_v43 : S100000x1.Idx → EReal)
    = fun y => Cert.ReferenceIdeal.Read.val_main_v17 (F := Ideal) (m ((c : Thread nD τ).loc main_arg1)) (ix1 (y 0)) := by
  rw [counts_st_cast]
  funext y
  obtain ⟨r, u, rfl⟩ : ∃ (r : Fin 100000) (u : Fin 1), y = ix2 r u := ⟨y 0, y 1, eq_ix2 y⟩
  exact Cert.Lib.shapeCast_a_a1_apply _ _ r u

theorem counts_ts : (V m c main_v44 : S100000x1.Idx → EReal)
    = fun y => Cert.ReferenceIdeal.Read.val_main_v40 (F := Ideal) (m ((c : Thread nD τ).loc main_arg1)) (ix1 (y 0)) := by
  rw [counts_ts_cast]
  funext y
  obtain ⟨r, u, rfl⟩ : ∃ (r : Fin 100000) (u : Fin 1), y = ix2 r u := ⟨y 0, y 1, eq_ix2 y⟩
  exact Cert.Lib.shapeCast_a_a1_apply _ _ r u

/-! ### The direction weights, halved

  (`W`, `bl`, `bs`, `bt` name the argument arrays as functions to the extended reals.) -/

theorem weights_st (W : S128x128.Idx → EReal) (hW : m ((c : Thread nD τ).loc main_arg4) = W) :
    (V m c main_v33 : S128x128.Idx → EReal) = fun y => W y * half := by
  subst hW
  dsimp only [V, hostOps0]
  after_results_simp
  rfl

theorem weights_ts (W : S128x128.Idx → EReal) (hW : m ((c : Thread nD τ).loc main_arg6) = W) :
    (V m c main_v37 : S128x128.Idx → EReal) = fun y => W y * half := by
  subst hW
  dsimp only [V, hostOps0]
  after_results_simp
  rfl

/-! ### The bias row -/

theorem bias_cast (bl bs bt : S128.Idx → EReal) (hl : m ((c : Thread nD τ).loc main_arg3) = bl)
    (hs : m ((c : Thread nD τ).loc main_arg5) = bs) (ht : m ((c : Thread nD τ).loc main_arg7) = bt) :
    (V m c main_v42 : S1x128.Idx → EReal)
      = shapeCast S1x128 (fun y : S128.Idx => (bl y + bs y * half) + bt y * half) shapeCasts_S128_S1x128 := by
  subst hl hs ht
  dsimp only [V, hostOps0]
  after_results_simp
  rfl

theorem bias_row (bl bs bt : S128.Idx → EReal) (hl : m ((c : Thread nD τ).loc main_arg3) = bl)
    (hs : m ((c : Thread nD τ).loc main_arg5) = bs) (ht : m ((c : Thread nD τ).loc main_arg7) = bt) :
    (V m c main_v42 : S1x128.Idx → EReal)
      = fun y => (bl (ix1 (y 1)) + bs (ix1 (y 1)) * half) + bt (ix1 (y 1)) * half := by
  rw [bias_cast m c bl bs bt hl hs ht]
  funext y
  obtain ⟨u, j, rfl⟩ : ∃ (u : Fin 1) (j : Fin 128), y = ix2 u j := ⟨y 0, y 1, eq_ix2 y⟩
  exact shapeCast_a_1a_apply _ _ u j

end Cert.DirSage.Host

end
-- ==== Proof.Blocks.lean ====
/-
  From the blocks to the whole result array.

  The grid has 25 points; point `t` works on node rows `4000·t … 4000·t + 3999`: its blocks of the features, of the
  two neighbour sums, of the two count columns and of the result are those rows, while the three weight matrices and
  the bias row are whole at every point.  So what point `t` writes back is rows `4000·t …` of the folded form of the
  layer over the arrays the region finds; the 25 row blocks cover the result array; and with the arrays as the host
  code prepared them the folded form is the layer itself.
-/
import proofs.«101336_j25829933318545_2_alg».proof.Proof.Gen.KernelIdeal.Value
import proofs.«101336_j25829933318545_2_alg».proof.Proof.Payload
import proofs.«101336_j25829933318545_2_alg».proof.Proof.Windows
import proofs.«101336_j25829933318545_2_alg».proof.Proof.Spec
import Idealize.ShloMosaic.Lib.Pipeline.Value
import Idealize.ShloMosaic.Lib.ValueIdx

noncomputable section

namespace Cert.DirSage.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.DirSage

/-! ### Which block each window shows at a point -/

/-- The printed index maps over the 25 points: the row windows and the result are at row block `t`, the weights and
    the bias row at block 0. -/
theorem index_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_9.index t (0 : Fin 2) = t.val
    ∧ win0_9.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- Row `a` of point `t`'s blocks is node `4000·t + a`. -/
def rowOf (t : Fin cfg0.N) (a : Fin 4000) : Fin 100000 :=
  ⟨t.val * 4000 + a.val, by have := t.isLt; have hN : cfg0.N = 25 := N_0; omega⟩

/-! Reading an array `A` through a window's block at point `t` (stated for any array of the window's shape). -/

/-- The features' window: the block's row `a` is node `4000·t + a`. -/
theorem rows_x (A : S100000x128.Idx → EReal) (t : Fin cfg0.N) (a : Fin 4000) (k : Fin 128) :
    ((cfg0.win 0).blk t).view.read (Elt Ideal) A (ix2 a k) = A (ix2 (rowOf t a) k) := by
  obtain ⟨x_r, x_c, s1_r, s1_c, s2_r, s2_c, k1_r, k1_c, k2_r, k2_c, o_r, o_c, wl_r, wl_c, ws_r, ws_c, wt_r, wt_c, b_r, b_c⟩ := index_facts t
  rw [View.read_apply]
  show A _ = A _
  refine congrArg A (funext fun d => Fin.ext ?_)
  match d with
  | ⟨0, _⟩ => show win0_0.index t (0 : Fin 2) * 4000 + 1 * a.val = t.val * 4000 + a.val; rw [x_r]; omega
  | ⟨1, _⟩ => show win0_0.index t (1 : Fin 2) * 128 + 1 * k.val = k.val; rw [x_c]; omega

/-- The first neighbour sums' window. -/
theorem rows_s1 (A : S100000x128.Idx → EReal) (t : Fin cfg0.N) (a : Fin 4000) (k : Fin 128) :
    ((cfg0.win 1).blk t).view.read (Elt Ideal) A (ix2 a k) = A (ix2 (rowOf t a) k) := by
  obtain ⟨x_r, x_c, s1_r, s1_c, s2_r, s2_c, k1_r, k1_c, k2_r, k2_c, o_r, o_c, wl_r, wl_c, ws_r, ws_c, wt_r, wt_c, b_r, b_c⟩ := index_facts t
  rw [View.read_apply]
  show A _ = A _
  refine congrArg A (funext fun d => Fin.ext ?_)
  match d with
  | ⟨0, _⟩ => show win0_1.index t (0 : Fin 2) * 4000 + 1 * a.val = t.val * 4000 + a.val; rw [s1_r]; omega
  | ⟨1, _⟩ => show win0_1.index t (1 : Fin 2) * 128 + 1 * k.val = k.val; rw [s1_c]; omega

/-- The second neighbour sums' window. -/
theorem rows_s2 (A : S100000x128.Idx → EReal) (t : Fin cfg0.N) (a : Fin 4000) (k : Fin 128) :
    ((cfg0.win 2).blk t).view.read (Elt Ideal) A (ix2 a k) = A (ix2 (rowOf t a) k) := by
  obtain ⟨x_r, x_c, s1_r, s1_c, s2_r, s2_c, k1_r, k1_c, k2_r, k2_c, o_r, o_c, wl_r, wl_c, ws_r, ws_c, wt_r, wt_c, b_r, b_c⟩ := index_facts t
  rw [View.read_apply]
  show A _ = A _
  refine congrArg A (funext fun d => Fin.ext ?_)
  match d with
  | ⟨0, _⟩ => show win0_2.index t (0 : Fin 2) * 4000 + 1 * a.val = t.val * 4000 + a.val; rw [s2_r]; omega
  | ⟨1, _⟩ => show win0_2.index t (1 : Fin 2) * 128 + 1 * k.val = k.val; rw [s2_c]; omega

/-- The first count column's window. -/
theorem rows_k1 (A : S100000x1.Idx → EReal) (t : Fin cfg0.N) (a : Fin 4000) (u : Fin 1) :
    ((cfg0.win 3).blk t).view.read (Elt Ideal) A (ix2 a u) = A (ix2 (rowOf t a) u) := by
  obtain ⟨x_r, x_c, s1_r, s1_c, s2_r, s2_c, k1_r, k1_c, k2_r, k2_c, o_r, o_c, wl_r, wl_c, ws_r, ws_c, wt_r, wt_c, b_r, b_c⟩ := index_facts t
  rw [View.read_apply]
  show A _ = A _
  refine congrArg A (funext fun d => Fin.ext ?_)
  match d with
  | ⟨0, _⟩ => show win0_3.index t (0 : Fin 2) * 4000 + 1 * a.val = t.val * 4000 + a.val; rw [k1_r]; omega
  | ⟨1, _⟩ => show win0_3.index t (1 : Fin 2) * 1 + 1 * u.val = u.val; rw [k1_c]; omega

/-- The second count column's window. -/
theorem rows_k2 (A : S100000x1.Idx → EReal) (t : Fin cfg0.N) (a : Fin 4000) (u : Fin 1) :
    ((cfg0.win 4).blk t).view.read (Elt Ideal) A (ix2 a u) = A (ix2 (rowOf t a) u) := by
  obtain ⟨x_r, x_c, s1_r, s1_c, s2_r, s2_c, k1_r, k1_c, k2_r, k2_c, o_r, o_c, wl_r, wl_c, ws_r, ws_c, wt_r, wt_c, b_r, b_c⟩ := index_facts t
  rw [View.read_apply]
  show A _ = A _
  refine congrArg A (funext fun d => Fin.ext ?_)
  match d with
  | ⟨0, _⟩ => show win0_4.index t (0 : Fin 2) * 4000 + 1 * a.val = t.val * 4000 + a.val; rw [k2_r]; omega
  | ⟨1, _⟩ => show win0_4.index t (1 : Fin 2) * 1 + 1 * u.val = u.val; rw [k2_c]; omega

/-- The root weights' window shows the whole matrix at every point. -/
theorem whole_wl (A : S128x128.Idx → EReal) (t : Fin cfg0.N) (p : Fin 128) (q : Fin 128) :
    ((cfg0.win 5).blk t).view.read (Elt Ideal) A (ix2 p q) = A (ix2 p q) := by
  obtain ⟨x_r, x_c, s1_r, s1_c, s2_r, s2_c, k1_r, k1_c, k2_r, k2_c, o_r, o_c, wl_r, wl_c, ws_r, ws_c, wt_r, wt_c, b_r, b_c⟩ := index_facts t
  rw [View.read_apply]
  show A _ = A _
  refine congrArg A (funext fun d => Fin.ext ?_)
  match d with
  | ⟨0, _⟩ => show win0_5.index t (0 : Fin 2) * 128 + 1 * p.val = p.val; rw [wl_r]; omega
  | ⟨1, _⟩ => show win0_5.index t (1 : Fin 2) * 128 + 1 * q.val = q.val; rw [wl_c]; omega

/-- So does the first direction's weights' window. -/
theorem whole_ws (A : S128x128.Idx → EReal) (t : Fin cfg0.N) (p : Fin 128) (q : Fin 128) :
    ((cfg0.win 6).blk t).view.read (Elt Ideal) A (ix2 p q) = A (ix2 p q) := by
  obtain ⟨x_r, x_c, s1_r, s1_c, s2_r, s2_c, k1_r, k1_c, k2_r, k2_c, o_r, o_c, wl_r, wl_c, ws_r, ws_c, wt_r, wt_c, b_r, b_c⟩ := index_facts t
  rw [View.read_apply]
  show A _ = A _
  refine congrArg A (funext fun d => Fin.ext ?_)
  match d with
  | ⟨0, _⟩ => show win0_6.index t (0 : Fin 2) * 128 + 1 * p.val = p.val; rw [ws_r]; omega
  | ⟨1, _⟩ => show win0_6.index t (1 : Fin 2) * 128 + 1 * q.val = q.val; rw [ws_c]; omega

/-- So does the second direction's weights' window. -/
theorem whole_wt (A : S128x128.Idx → EReal) (t : Fin cfg0.N) (p : Fin 128) (q : Fin 128) :
    ((cfg0.win 7).blk t).view.read (Elt Ideal) A (ix2 p q) = A (ix2 p q) := by
  obtain ⟨x_r, x_c, s1_r, s1_c, s2_r, s2_c, k1_r, k1_c, k2_r, k2_c, o_r, o_c, wl_r, wl_c, ws_r, ws_c, wt_r, wt_c, b_r, b_c⟩ := index_facts t
  rw [View.read_apply]
  show A _ = A _
  refine congrArg A (funext fun d => Fin.ext ?_)
  match d with
  | ⟨0, _⟩ => show win0_7.index t (0 : Fin 2) * 128 + 1 * p.val = p.val; rw [wt_r]; omega
  | ⟨1, _⟩ => show win0_7.index t (1 : Fin 2) * 128 + 1 * q.val = q.val; rw [wt_c]; omega

/-- The bias row's window shows the whole row at every point. -/
theorem whole_b (A : S1x128.Idx → EReal) (t : Fin cfg0.N) (p : Fin 1) (q : Fin 128) :
    ((cfg0.win 8).blk t).view.read (Elt Ideal) A (ix2 p q) = A (ix2 p q) := by
  obtain ⟨x_r, x_c, s1_r, s1_c, s2_r, s2_c, k1_r, k1_c, k2_r, k2_c, o_r, o_c, wl_r, wl_c, ws_r, ws_c, wt_r, wt_c, b_r, b_c⟩ := index_facts t
  rw [View.read_apply]
  show A _ = A _
  refine congrArg A (funext fun d => Fin.ext ?_)
  match d with
  | ⟨0, _⟩ => show win0_8.index t (0 : Fin 2) * 1 + 1 * p.val = p.val; rw [b_r]; omega
  | ⟨1, _⟩ => show win0_8.index t (1 : Fin 2) * 128 + 1 * q.val = q.val; rw [b_c]; omega

/-- Writing back through the result's window: if the output block `B` is rows `4000·t …` of an array `G`, what point `t`
    writes back is its block of `G`. -/
theorem writes_block (G : S100000x128.Idx → EReal) (B : S4000x128.Idx → EReal) (t : Fin cfg0.N)
    (h : ∀ (a : Fin 4000) (b : Fin 128), B (ix2 a b) = G (ix2 (rowOf t a) b)) :
    (cfg0.win 9).cut (grid0.coords t) B = ((cfg0.win 9).blk t).view.read (Elt Ideal) G := by
  obtain ⟨x_r, x_c, s1_r, s1_c, s2_r, s2_c, k1_r, k1_c, k2_r, k2_c, o_r, o_c, wl_r, wl_c, ws_r, ws_c, wt_r, wt_c, b_r, b_c⟩ := index_facts t
  funext j
  rw [View.read_apply]
  show B _ = G _
  have hj : (cfg0.win 9).xinj (grid0.coords t) j = ix2 (⟨(j 0).val, (j 0).isLt⟩ : Fin 4000) (⟨(j 1).val, (j 1).isLt⟩ : Fin 128) :=
    funext fun d => Fin.ext (by match d with | ⟨0, _⟩ => rfl | ⟨1, _⟩ => rfl)
  refine (congrArg B hj).trans ((h _ _).trans (congrArg G (funext fun d => Fin.ext ?_)))
  match d with
  | ⟨0, _⟩ => show t.val * 4000 + (j 0).val = win0_9.index t (0 : Fin 2) * 4000 + 1 * (j 0).val; rw [o_r]; omega
  | ⟨1, _⟩ => show (j 1).val = win0_9.index t (1 : Fin 2) * 128 + 1 * (j 1).val; rw [o_c]; omega

variable (m : (ℓ : Loc nD τ sig) → Buf (Elt Ideal) ℓ) (ρ : Dev nD → PrngReg) (c : Dev nD)

/-! ### The input blocks at a point, read off the arrays the region finds -/

theorem read_x (t : Fin cfg0.N) (a : Fin 4000) (k : Fin 128) :
    iblk m c 0 t (ix2 a k) = (V m c main_arg0 : S100000x128.Idx → EReal) (ix2 (rowOf t a) k) :=
  rows_x (V m c main_arg0) t a k

theorem read_s1 (t : Fin cfg0.N) (a : Fin 4000) (k : Fin 128) :
    iblk m c 1 t (ix2 a k) = (V m c main_v20 : S100000x128.Idx → EReal) (ix2 (rowOf t a) k) :=
  rows_s1 (V m c main_v20) t a k

theorem read_s2 (t : Fin cfg0.N) (a : Fin 4000) (k : Fin 128) :
    iblk m c 2 t (ix2 a k) = (V m c main_v27 : S100000x128.Idx → EReal) (ix2 (rowOf t a) k) :=
  rows_s2 (V m c main_v27) t a k

theorem read_k1 (t : Fin cfg0.N) (a : Fin 4000) (u : Fin 1) :
    iblk m c 3 t (ix2 a u) = (V m c main_v43 : S100000x1.Idx → EReal) (ix2 (rowOf t a) u) :=
  rows_k1 (V m c main_v43) t a u

theorem read_k2 (t : Fin cfg0.N) (a : Fin 4000) (u : Fin 1) :
    iblk m c 4 t (ix2 a u) = (V m c main_v44 : S100000x1.Idx → EReal) (ix2 (rowOf t a) u) :=
  rows_k2 (V m c main_v44) t a u

theorem read_wl (t : Fin cfg0.N) (p : Fin 128) (q : Fin 128) :
    iblk m c 5 t (ix2 p q) = (V m c main_arg2 : S128x128.Idx → EReal) (ix2 p q) :=
  whole_wl (V m c main_arg2) t p q

theorem read_ws (t : Fin cfg0.N) (p : Fin 128) (q : Fin 128) :
    iblk m c 6 t (ix2 p q) = (V m c main_v33 : S128x128.Idx → EReal) (ix2 p q) :=
  whole_ws (V m c main_v33) t p q

theorem read_wt (t : Fin cfg0.N) (p : Fin 128) (q : Fin 128) :
    iblk m c 7 t (ix2 p q) = (V m c main_v37 : S128x128.Idx → EReal) (ix2 p q) :=
  whole_wt (V m c main_v37) t p q

theorem read_b (t : Fin cfg0.N) (p : Fin 1) (q : Fin 128) :
    iblk m c 8 t (ix2 p q) = (V m c main_v42 : S1x128.Idx → EReal) (ix2 p q) :=
  whole_b (V m c main_v42) t p q

/-! ### What a point writes back -/

/-- The result array: the folded form of the layer over the arrays the region finds. -/
def result : S100000x128.Idx → EReal := fun i =>
  foldedAt (V m c main_arg0) (V m c main_v20) (V m c main_v27) (V m c main_v43) (V m c main_v44) (V m c main_arg2) (V m c main_v33) (V m c main_v37) (V m c main_v42) (i 0) (i 1)

/-- Entry `(a, b)` of what point `t` leaves in the output block is the folded form at node `4000·t + a`. -/
theorem point_block (t : Fin cfg0.N) (a : Fin 4000) (b : Fin 128) :
    out0_9 (iblk m c 0 t) (iblk m c 1 t) (iblk m c 2 t) (iblk m c 3 t) (iblk m c 4 t) (iblk m c 5 t) (iblk m c 6 t) (iblk m c 7 t) (iblk m c 8 t) (ix2 a b)
      = foldedAt (V m c main_arg0) (V m c main_v20) (V m c main_v27) (V m c main_v43) (V m c main_v44) (V m c main_arg2) (V m c main_v33) (V m c main_v37) (V m c main_v42) (rowOf t a) b := by
  refine (Body.out_block_at (iblk m c 0 t) (iblk m c 1 t) (iblk m c 2 t) (iblk m c 3 t) (iblk m c 4 t) (iblk m c 5 t) (iblk m c 6 t) (iblk m c 7 t) (iblk m c 8 t) a b).trans ?_
  unfold Body.blockAt foldedAt
  simp only [read_x m c t, read_s1 m c t, read_s2 m c t, read_k1 m c t, read_k2 m c t, read_wl m c t, read_ws m c t,
    read_wt m c t, read_b m c t]

/-- What point `t` writes back is its block of `result`. -/
theorem flushed_eq (t : Fin cfg0.N) :
    (dats m 0 c).flushed 9 t = ((cfg0.win 9).blk t).view.read (Elt Ideal) (result m c) := by
  rw [Value.flushed9]
  exact writes_block (result m c) (out0_9 (iblk m c 0 t) (iblk m c 1 t) (iblk m c 2 t) (iblk m c 3 t) (iblk m c 4 t) (iblk m c 5 t) (iblk m c 6 t) (iblk m c 7 t) (iblk m c 8 t)) t (fun a b => point_block m c t a b)

/-! ### The 25 row blocks cover the result -/

theorem mem_block (t : Fin cfg0.N) (i : S100000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v45).slice (win0_9.rect t)).set ↔ _
  rw [View.set_slice_whole, Rect.mem_set_unit]
  exact Iff.rfl

/-- Node `r` is in the block of point `r / 4000`. -/
theorem cover (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 25 := N_0
  have ht : (i 0).val / 4000 < cfg0.N := by omega
  obtain ⟨x_r, x_c, s1_r, s1_c, s2_r, s2_c, k1_r, k1_c, k2_r, k2_c, o_r, o_c, wl_r, wl_c, ws_r, ws_c, wt_r, wt_c, b_r, b_c⟩ := index_facts ⟨(i 0).val / 4000, ht⟩
  refine ⟨⟨(i 0).val / 4000, ht⟩, flush0_9 _, ?_⟩
  rw [mem_block]
  intro a
  match a with
  | ⟨0, _⟩ =>
    show win0_9.index ⟨(i 0).val / 4000, ht⟩ (0 : Fin 2) * 4000 ≤ (i 0).val
      ∧ (i 0).val < win0_9.index ⟨(i 0).val / 4000, ht⟩ (0 : Fin 2) * 4000 + 4000
    rw [o_r]; show (i 0).val / 4000 * 4000 ≤ (i 0).val ∧ (i 0).val < (i 0).val / 4000 * 4000 + 4000; omega
  | ⟨1, _⟩ =>
    show win0_9.index ⟨(i 0).val / 4000, ht⟩ (1 : Fin 2) * 128 ≤ (i 1).val
      ∧ (i 1).val < win0_9.index ⟨(i 0).val / 4000, ht⟩ (1 : Fin 2) * 128 + 128
    rw [o_c]; omega

/-- So the result array ends holding `result`. -/
theorem final : (dats m 0 c).arrAt 9 cfg0.N = result m c :=
  (dats m 0 c).arrAt_eq_of_cover 9 (result m c) (fun t _ => flushed_eq m c t) cover

/-! ### With the arrays as prepared, the folded form is the layer -/

theorem result_eq_layer : result m c = fun i =>
    layerAt (m ((c : Thread nD τ).loc main_arg0)) (Cert.ReferenceIdeal.Read.val_main_v13 (F := Ideal) (m ((c : Thread nD τ).loc main_arg0)) (m ((c : Thread nD τ).loc main_arg1))) (Cert.ReferenceIdeal.Read.val_main_v36 (F := Ideal) (m ((c : Thread nD τ).loc main_arg0)) (m ((c : Thread nD τ).loc main_arg1)))
        (Cert.ReferenceIdeal.Read.val_main_v17 (F := Ideal) (m ((c : Thread nD τ).loc main_arg1))) (Cert.ReferenceIdeal.Read.val_main_v40 (F := Ideal) (m ((c : Thread nD τ).loc main_arg1)))
        (m ((c : Thread nD τ).loc main_arg2)) (m ((c : Thread nD τ).loc main_arg4)) (m ((c : Thread nD τ).loc main_arg6)) (m ((c : Thread nD τ).loc main_arg3)) (m ((c : Thread nD τ).loc main_arg5)) (m ((c : Thread nD τ).loc main_arg7)) (i 0) (i 1) := by
  funext i
  unfold result
  rw [Host.sums_st, Host.sums_ts, Host.counts_st, Host.counts_ts, Host.weights_st m c _ rfl, Host.weights_ts m c _ rfl,
    Host.bias_row m c _ _ _ rfl rfl rfl, V_main_arg0, V_main_arg2]
  exact foldedAt_prepared _ _ _ _ _ _ _ _ _ _ _ (i 0) (i 1)

/-- The kernel's run, read: the result array holds the layer of the arguments, the arguments are unchanged. -/
theorem run : θ_run defs (onTc (τ := τ) (main (F := Ideal))) ⟨m, fun _ => 0, ρ⟩ fun r => ∀ c : Dev nD,
      r.2.mem ((c : Thread nD τ).loc main_v45) = (fun i : S100000x128.Idx =>
        layerAt (m ((c : Thread nD τ).loc main_arg0)) (Cert.ReferenceIdeal.Read.val_main_v13 (F := Ideal) (m ((c : Thread nD τ).loc main_arg0)) (m ((c : Thread nD τ).loc main_arg1))) (Cert.ReferenceIdeal.Read.val_main_v36 (F := Ideal) (m ((c : Thread nD τ).loc main_arg0)) (m ((c : Thread nD τ).loc main_arg1)))
        (Cert.ReferenceIdeal.Read.val_main_v17 (F := Ideal) (m ((c : Thread nD τ).loc main_arg1))) (Cert.ReferenceIdeal.Read.val_main_v40 (F := Ideal) (m ((c : Thread nD τ).loc main_arg1)))
        (m ((c : Thread nD τ).loc main_arg2)) (m ((c : Thread nD τ).loc main_arg4)) (m ((c : Thread nD τ).loc main_arg6)) (m ((c : Thread nD τ).loc main_arg3)) (m ((c : Thread nD τ).loc main_arg5)) (m ((c : Thread nD τ).loc main_arg7)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (result_eq_layer m c)), (h c).2⟩)
    (Cert.KernelIdeal.Value.run_blocks m ρ)

end Cert.DirSage.Blocks

end
-- ==== Proof.RefValue.lean ====
/-
  The reference computes the layer.

  Read one operation at a time, the reference's result at node `r = i 0`, feature `j = i 1` is the root product
  plus its bias, plus one half of each direction's output: the direction's neighbour sums divided by its clamped
  neighbour counts (the counts broadcast along the feature axis), times the direction's weights, plus its bias.
  The neighbour sums and counts themselves (a gather of rows followed by a scatter-add) are left as they are:
  the kernel's host code computes them by the same operations.
-/
import proofs.«101336_j25829933318545_2_alg».proof.Proof.Gen.ReferenceIdeal.Read
import proofs.«101336_j25829933318545_2_alg».proof.Proof.Spec

noncomputable section

namespace Cert.DirSage.Ref

open Cert.ReferenceIdeal Cert.ReferenceIdeal.Read Idealize.ShloMosaic Idealize.ShloMosaic.ValueIdx Cert.DirSage

/-! ### Where each operation reads its operands (node `r`, output feature `j`, contracted feature `k`) -/

theorem lhs_st (r : Fin 100000) (j k : Fin 128) : lidx_main_v23 (ix2 r j) k = ix2 r k :=
  funext fun a => Fin.ext (by match a with | ⟨0, _⟩ => rfl | ⟨1, _⟩ => rfl)
theorem rhs_st (r : Fin 100000) (j k : Fin 128) : ridx_main_v23 (ix2 r j) k = ix2 k j :=
  funext fun a => Fin.ext (by match a with | ⟨0, _⟩ => rfl | ⟨1, _⟩ => rfl)
theorem lhs_ts (r : Fin 100000) (j k : Fin 128) : lidx_main_v46 (ix2 r j) k = ix2 r k :=
  funext fun a => Fin.ext (by match a with | ⟨0, _⟩ => rfl | ⟨1, _⟩ => rfl)
theorem rhs_ts (r : Fin 100000) (j k : Fin 128) : ridx_main_v46 (ix2 r j) k = ix2 k j :=
  funext fun a => Fin.ext (by match a with | ⟨0, _⟩ => rfl | ⟨1, _⟩ => rfl)
theorem lhs_root (r : Fin 100000) (j k : Fin 128) : lidx_main_v50 (ix2 r j) k = ix2 r k :=
  funext fun a => Fin.ext (by match a with | ⟨0, _⟩ => rfl | ⟨1, _⟩ => rfl)
theorem rhs_root (r : Fin 100000) (j k : Fin 128) : ridx_main_v50 (ix2 r j) k = ix2 k j :=
  funext fun a => Fin.ext (by match a with | ⟨0, _⟩ => rfl | ⟨1, _⟩ => rfl)

/-- a bias broadcast over the nodes is read at the feature -/
theorem bias_st (r : Fin 100000) (j : Fin 128) : idx_main_v24 (idx_main_v25 (ix2 r j)) = ix1 j :=
  funext fun a => Fin.ext (by match a with | ⟨0, _⟩ => rfl)
theorem bias_ts (r : Fin 100000) (j : Fin 128) : idx_main_v47 (idx_main_v48 (ix2 r j)) = ix1 j :=
  funext fun a => Fin.ext (by match a with | ⟨0, _⟩ => rfl)
theorem bias_root (r : Fin 100000) (j : Fin 128) : idx_main_v51 (idx_main_v52 (ix2 r j)) = ix1 j :=
  funext fun a => Fin.ext (by match a with | ⟨0, _⟩ => rfl)

/-- a count broadcast over the features is read at the node -/
theorem count_st (r : Fin 100000) (k : Fin 128) : idx_main_v20 (idx_main_v21 (ix2 r k)) = ix1 r :=
  funext fun a => Fin.ext (by match a with | ⟨0, _⟩ => rfl)
theorem count_ts (r : Fin 100000) (k : Fin 128) : idx_main_v43 (idx_main_v44 (ix2 r k)) = ix1 r :=
  funext fun a => Fin.ext (by match a with | ⟨0, _⟩ => rfl)

/-! ### The result -/

variable (x0 : (⟨S100000x128, .f32⟩ : BufTy).Contents (Elt Ideal)) (x1 : (⟨S2x640000, .i32⟩ : BufTy).Contents (Elt Ideal))

/-- The first direction's mean at node `r`, feature `k`. -/
theorem mean_st (r : Fin 100000) (k : Fin 128) :
    val_main_v22 (F := Ideal) x0 x1 (ix2 r k) = mean (val_main_v13 (F := Ideal) x0 x1) (val_main_v17 (F := Ideal) x1) r k := by
  rw [val_main_v22_apply, val_main_v21_apply, val_main_v20_apply, val_main_v19_apply, val_main_v18_apply, val_main_cst_3_apply, count_st]
  rfl

/-- The second direction's mean at node `r`, feature `k`. -/
theorem mean_ts (r : Fin 100000) (k : Fin 128) :
    val_main_v45 (F := Ideal) x0 x1 (ix2 r k) = mean (val_main_v36 (F := Ideal) x0 x1) (val_main_v40 (F := Ideal) x1) r k := by
  rw [val_main_v45_apply, val_main_v44_apply, val_main_v43_apply, val_main_v42_apply, val_main_v41_apply, val_main_cst_9_apply, count_ts]
  rfl

/-- The first direction's output (product plus bias) at node `r`, feature `j`. -/
theorem out_st (x4 : (⟨S128x128, .f32⟩ : BufTy).Contents (Elt Ideal)) (x5 : (⟨S128, .f32⟩ : BufTy).Contents (Elt Ideal)) (r : Fin 100000) (j : Fin 128) :
    val_main_v26 (F := Ideal) x0 x1 x4 x5 (ix2 r j)
      = ∑ k : Fin 128, mean (val_main_v13 (F := Ideal) x0 x1) (val_main_v17 (F := Ideal) x1) r k * x4 (ix2 k j) + x5 (ix1 j) := by
  rw [val_main_v26_apply, val_main_v23_apply, val_main_v25_apply, val_main_v24_apply, bias_st]
  refine congrArg₂ (· + ·) (Finset.sum_congr rfl fun k _ => ?_) rfl
  rw [lhs_st, rhs_st, mean_st]

/-- The second direction's output at node `r`, feature `j`. -/
theorem out_ts (x6 : (⟨S128x128, .f32⟩ : BufTy).Contents (Elt Ideal)) (x7 : (⟨S128, .f32⟩ : BufTy).Contents (Elt Ideal)) (r : Fin 100000) (j : Fin 128) :
    val_main_v49 (F := Ideal) x0 x1 x6 x7 (ix2 r j)
      = ∑ k : Fin 128, mean (val_main_v36 (F := Ideal) x0 x1) (val_main_v40 (F := Ideal) x1) r k * x6 (ix2 k j) + x7 (ix1 j) := by
  rw [val_main_v49_apply, val_main_v46_apply, val_main_v48_apply, val_main_v47_apply, bias_ts]
  refine congrArg₂ (· + ·) (Finset.sum_congr rfl fun k _ => ?_) rfl
  rw [lhs_ts, rhs_ts, mean_ts]

/-- The root term at node `r`, feature `j`. -/
theorem out_root (x2 : (⟨S128x128, .f32⟩ : BufTy).Contents (Elt Ideal)) (x3 : (⟨S128, .f32⟩ : BufTy).Contents (Elt Ideal)) (r : Fin 100000) (j : Fin 128) :
    val_main_v53 (F := Ideal) x0 x2 x3 (ix2 r j) = ∑ k : Fin 128, x0 (ix2 r k) * x2 (ix2 k j) + x3 (ix1 j) := by
  rw [val_main_v53_apply, val_main_v50_apply, val_main_v52_apply, val_main_v51_apply, bias_root]
  refine congrArg₂ (· + ·) (Finset.sum_congr rfl fun k _ => ?_) rfl
  rw [lhs_root, rhs_root]

/-- The reference's result, index by index, is the layer of the arguments and of the neighbour sums and counts
    its own first operations compute. -/
theorem result_apply (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (r : Fin 100000) (j : Fin 128) :
    val_main_v59 (F := Ideal) x0 x1 x2 x3 x4 x5 x6 x7 (ix2 r j)
      = layerAt x0 (val_main_v13 (F := Ideal) x0 x1) (val_main_v36 (F := Ideal) x0 x1) (val_main_v17 (F := Ideal) x1) (val_main_v40 (F := Ideal) x1)
          x2 x4 x6 x3 x5 x7 r j := by
  rw [val_main_v59_apply, val_main_v56_apply, val_main_v55_apply, val_main_v54_apply, val_main_cst_10_apply,
    val_main_v58_apply, val_main_v57_apply, val_main_cst_11_apply, out_root, out_st, out_ts]
  rfl

end Cert.DirSage.Ref

end
-- ==== Proof.lean ====
/-
  A two-direction neighbourhood-mean graph layer with a root term: the kernel and its reference compute one function.

  For 100000 nodes with 128 features and 640000 directed edges, both programs first form, for each direction of the
  edges, every node's sum of its neighbours' feature rows and its number of neighbours (a gather followed by a
  scatter-add; the same operations in both programs).  The reference then takes each direction's mean (the sum
  over the count clamped below at one), multiplies it by that direction's weight matrix, adds the direction's
  bias, scales the result by one half, and adds both to the root term `x · W_lin + b_lin`.  The kernel instead
  receives the direction weights already multiplied by one half and a single bias row `b_lin + b_st·½ + b_ts·½`, and
  for each block of 4000 node rows adds the three matrix products and that row.

  On the extended reals the two agree entry by entry: one half is a finite nonnegative factor, so it distributes over
  every sum (Proof/Scale.lean), and products and sums may be regrouped freely; the roundings to a narrower float
  format that the kernel applies on the way into its products are the identity there.  No finiteness of any input is
  used.  Proof/Spec.lean states the layer as one function of its arrays; Proof/RefValue.lean reads the reference's
  result as that function; Proof/Payload.lean, Proof/Windows.lean and Proof/Blocks.lean read the kernel's result
  array — block by block, over the arrays its host code prepares — as the same function.  The kernel's idealization
  rewrites nothing, so there is nothing to preserve.
-/
import proofs.«101336_j25829933318545_2_alg».proof.Defs
import proofs.«101336_j25829933318545_2_alg».proof.Proof.Gen.Kernel
import proofs.«101336_j25829933318545_2_alg».proof.Proof.Gen.Kernel.Skeleton
import proofs.«101336_j25829933318545_2_alg».proof.Proof.Gen.Kernel.Launch
import proofs.«101336_j25829933318545_2_alg».proof.Proof.Gen.Kernel.Points
import proofs.«101336_j25829933318545_2_alg».proof.Proof.Gen.Kernel.Frame
import proofs.«101336_j25829933318545_2_alg».proof.Proof.Gen.KernelIdeal
import proofs.«101336_j25829933318545_2_alg».proof.Proof.Gen.KernelIdeal.Skeleton
import proofs.«101336_j25829933318545_2_alg».proof.Proof.Gen.KernelIdeal.Launch
import proofs.«101336_j25829933318545_2_alg».proof.Proof.Gen.KernelIdeal.Points
import proofs.«101336_j25829933318545_2_alg».proof.Proof.Gen.KernelIdeal.Frame
import proofs.«101336_j25829933318545_2_alg».proof.Proof.Gen.ReferenceIdeal
import proofs.«101336_j25829933318545_2_alg».proof.Proof.Gen.KernelIdeal.Value
import proofs.«101336_j25829933318545_2_alg».proof.Proof.Gen.ReferenceIdeal.Run
import proofs.«101336_j25829933318545_2_alg».proof.Proof.Gen.ReferenceIdeal.Read
import proofs.«101336_j25829933318545_2_alg».proof.Proof.Gen.Pre_finite_inputs
import proofs.«101336_j25829933318545_2_alg».proof.Proof.Blocks
import proofs.«101336_j25829933318545_2_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From memories that agree on the arguments both programs end with the layer of the arguments in their result
    arrays: the kernel's 25 row blocks cover its array (Proof/Blocks.lean), and the reference's result read at node
    `r`, feature `j` is the same number (Proof/RefValue.lean). -/
theorem algebraic : Cert.algebraic_KernelIdeal_ReferenceIdeal := by
  intro m ρ m' ρ' _ hagree
  refine ⟨_, Cert.DirSage.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v59_eq, a0, a1, a2, a3, a4, a5, a6, a7]
  funext i
  obtain ⟨r, j, rfl⟩ : ∃ (r : Fin 100000) (j : Fin 128), i = ix2 r j := ⟨i 0, i 1, eq_ix2 i⟩
  exact Cert.DirSage.Ref.result_apply _ _ _ _ _ _ _ _ r j

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
